-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel

variable [Facts]

def fn {F : FTy → Type} [FloatOps F] (main_arg0 : FVec F S8192x64 .f32) (main_arg1 : FVec F S8192x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  main_v8
-- ==== Kernel.lean ====
abbrev S8192x64 : Shape := ⟨2, ![8192, 64]⟩
abbrev S8192x8192 : Shape := ⟨2, ![8192, 8192]⟩
abbrev S1024x64 : Shape := ⟨2, ![1024, 64]⟩
abbrev S1024x1024 : Shape := ⟨2, ![1024, 1024]⟩
abbrev S1024 : Shape := ⟨1, ![1024]⟩
abbrev S1024x1 : Shape := ⟨2, ![1024, 1]⟩
abbrev S64x1024 : Shape := ⟨2, ![64, 1024]⟩
abbrev S1x1024 : Shape := ⟨2, ![1, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x8192, .f32⟩
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S1024x64, .f32⟩
  | .local _ .vmem, ⟨4, _⟩ => ⟨S1024x1024, .f32⟩
  | .local _ .vmem, ⟨5, _⟩ => ⟨S1024x1024, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x64_S1024x64_0_0 : ∀ a, (![0, 0] : Fin 2 → Nat) a + S1024x64.size a ≤ S1024x64.size a
  h_S1024x64 : 0 < S1024x64.numel
  reduces_S1024x64_S1024 : S1024x64.Reduces [1] S1024
  shapeCasts_S1024_S1024x1 : S1024.ShapeCasts S1024x1
  transposes_S1024x64_p1_0_S64x1024 : S1024x64.Transposes [1, 0] S64x1024
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .f32 = 32 ∨ (Rect.block (s := S8192x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S8192x64.size a
  hwx0_1 : ∀ i : grid0.Coords, EltTy.bits .f32 = 32 ∨ (Rect.block (s := S8192x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S64x8192 : Shape := ⟨2, ![64, 8192]⟩

abbrev nBuf : Space → Nat
  | .hbm => 48
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S8192x64, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S64x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192, .f32⟩
  | .hbm, ⟨29, _⟩ => ⟨S8192, .f32⟩
  | .hbm, ⟨30, _⟩ => ⟨S1x8192, .f32⟩
  | .hbm, ⟨31, _⟩ => ⟨S8192x8192, .f32⟩
  | .hbm, ⟨32, _⟩ => ⟨S8192x8192, .f32⟩
  | .hbm, ⟨33, _⟩ => ⟨S8192x8192, .f32⟩
  | .hbm, ⟨34, _⟩ => ⟨S_, .f32⟩
  | .hbm, ⟨35, _⟩ => ⟨S8192x8192, .f32⟩
  | .hbm, ⟨36, _⟩ => ⟨S8192x8192, .f32⟩
  | .hbm, ⟨37, _⟩ => ⟨S8192x8192, .f32⟩
  | .hbm, ⟨38, _⟩ => ⟨S_, .f32⟩
  | .hbm, ⟨39, _⟩ => ⟨S8192x8192, .f32⟩
  | .hbm, ⟨40, _⟩ => ⟨S8192x8192, .f32⟩
  | .hbm, ⟨41, _⟩ => ⟨S8192x8192, .f32⟩
  | .hbm, ⟨42, _⟩ => ⟨S_, .f32⟩
  | .hbm, ⟨43, _⟩ => ⟨S8192x8192, .f32⟩
  | .hbm, ⟨44, _⟩ => ⟨S8192x8192, .f32⟩
  | .hbm, ⟨45, _⟩ => ⟨S8192x8192, .f32⟩
  | .hbm, ⟨46, _⟩ => ⟨S8192x8192, .f32⟩
  | .hbm, ⟨47, _⟩ => ⟨S8192x8192, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_5 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_6 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_7 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x64_S64x8192_1_0 : S8192x64.Transposes [1, 0] S64x8192
  bcast_S_S8192x8192 : S_.BroadcastsInDim S8192x8192 (![] : Fin 0 → Fin S8192x8192.rank)
  bcast_S_S8192 : S_.BroadcastsInDim S8192 (![] : Fin 0 → Fin S8192.rank)
  dot_S8192x64_S64x8192_S8192x8192_1_0_0_1_n_n_wf : DotDims.WF S8192x64 S64x8192 S8192x8192 [1] [0] [0] [1] [] []

variable [Facts₀]

def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.BallDistance.lean ====
/-
  The distance table of two families of points of the unit ball of ℝ⁶⁴, on the extended reals.

  For points u, v write |u|², |v|² for their squared lengths and ⟨u, v⟩ for their inner product. The squared
  Euclidean gap is |u|² + |v|² − 2⟨u, v⟩; clamped at zero from below and rooted it is the gap g. With the two
  conformal factors 1 − |u|² and 1 − |v|² the quantity y = 1 + 2g / ((1 − |u|²)(1 − |v|²)) is formed, and the
  distance is arcosh y written out as log (y + √(y² − 1)).

  Both programs of this certificate compute exactly this expression, operation for operation, from the same three
  words 0, 1 and 2; they differ only in how the three sums over the 64 coordinates are taken (a lane sum and a
  matrix unit on 1024-row blocks against whole-array reductions and one contraction). On the extended reals a
  finite sum does not depend on how it is taken, so no law beyond that is used, and the inputs' finiteness plays
  no part: every operation below is total on the extended reals and is read the same way on both sides.

  The squared length enters twice, once in the gap and once in the conformal factor; `arcoshForm` keeps the
  five places apart so that a program's five reads of its intermediate arrays can be set against it directly.
-/
import Idealize.ShloMosaic.PureOps.Ideal
import Idealize.ShloMosaic.Lib.ValueIdx

noncomputable section

open scoped BigOperators

namespace Cert.BallDistance

open Idealize.ShloMosaic Idealize.ShloMosaic.ValueIdx

/-- The squared length of row `r` of a matrix with 64 columns. -/
def rowSq {n : ℕ} (x : (⟨2, ![n, 64]⟩ : Shape).Idx → EReal) (r : Fin n) : EReal :=
  ∑ k : Fin 64, x (ix2 r k) * x (ix2 r k)

/-- The inner product of row `r` of one matrix with row `s` of another. -/
def rowDot {n n' : ℕ} (x : (⟨2, ![n, 64]⟩ : Shape).Idx → EReal) (y : (⟨2, ![n', 64]⟩ : Shape).Idx → EReal)
    (r : Fin n) (s : Fin n') : EReal :=
  ∑ k : Fin 64, x (ix2 r k) * y (ix2 s k)

/-- y = 1 + 2 · √(max (sa + sb − 2d) 0) / (ca · cb): the argument of the arcosh, from the two squared lengths as
    they enter the gap (`sa`, `sb`), the inner product `d` and the two conformal factors (`ca`, `cb`). -/
def ratio (sa sb d ca cb : EReal) : EReal :=
  Ideal.ofBits .f32 0x3F800000#32
    + Ideal.div (Ideal.ofBits .f32 0x40000000#32
        * Ideal.sqrt (max (sa + sb - Ideal.ofBits .f32 0x40000000#32 * d) (Ideal.ofBits .f32 0x00000000#32)))
      (ca * cb)

/-- arcosh written out: log (y + √(y · y − 1)). -/
def arcosh (y : EReal) : EReal :=
  Ideal.log (y + Ideal.sqrt (y * y - Ideal.ofBits .f32 0x3F800000#32))

/-- The distance with the five places of the squared lengths, the inner product and the conformal factors apart. -/
def arcoshForm (sa sb d ca cb : EReal) : EReal := arcosh (ratio sa sb d ca cb)

/-- The distance from |u|², |v|² and ⟨u, v⟩: the conformal factors are 1 − |u|² and 1 − |v|². -/
def ofNorms (na nb d : EReal) : EReal :=
  arcoshForm na nb d (Ideal.ofBits .f32 0x3F800000#32 - na) (Ideal.ofBits .f32 0x3F800000#32 - nb)

/-- THE TABLE: entry (i, j) is the distance of row i of `a` from row j of `b`. -/
def table (a b : (⟨2, ![8192, 64]⟩ : Shape).Idx → EReal) : (⟨2, ![8192, 8192]⟩ : Shape).Idx → EReal :=
  fun i => ofNorms (rowSq a (i 0)) (rowSq b (i 1)) (rowDot a b (i 0) (i 1))

/-- A block of rows of `a` and a block of rows of `b` give the table's entry at the rows they were cut from:
    if row `p` of `x` is row `i 0` of `a` and row `q` of `y` is row `i 1` of `b`, the distance computed from the
    blocks at (p, q) is the table's entry `i`. -/
theorem ofNorms_rows {n n' : ℕ} (a b : (⟨2, ![8192, 64]⟩ : Shape).Idx → EReal)
    (x : (⟨2, ![n, 64]⟩ : Shape).Idx → EReal) (y : (⟨2, ![n', 64]⟩ : Shape).Idx → EReal)
    (p : Fin n) (q : Fin n') (i : (⟨2, ![8192, 8192]⟩ : Shape).Idx)
    (hx : ∀ k : Fin 64, x (ix2 p k) = a (ix2 (i 0) k)) (hy : ∀ k : Fin 64, y (ix2 q k) = b (ix2 (i 1) k)) :
    ofNorms (rowSq x p) (rowSq y q) (rowDot x y p q) = table a b i := by
  unfold table rowSq rowDot
  simp only [hx, hy]

end Cert.BallDistance

end
-- ==== Proof.LibContract.lean ====
/-
  A matrix product's contraction as a plain sum.

  A product of an [n0, K] matrix with a [K, n1] matrix whose dimension numbers contract the left operand's
  second axis with the right operand's first sums, at the result index (r, c), over the positions of a
  one-axis contraction shape. Re-indexed by that axis' coordinate it is the textbook sum
  ∑ k < K, l (r, k) · r (k, c). The statement is for any dimension record of those shapes: what the record
  owes is that it has one contracting axis of extent K (left axis 1, right axis 0) and that the two free
  axes read the result's coordinates.
-/
import Idealize.ShloMosaic.Lib.ValueIdx

noncomputable section

open scoped BigOperators

namespace Idealize.ShloMosaic.Contract2

open Idealize.ShloMosaic Idealize.ShloMosaic.ValueIdx

/-- The contraction sum of a matrix product at a result index is the sum over the shared coordinate. -/
theorem sum_contr_eq_sum_fin {n0 n1 K : ℕ} {M : Type*} [AddCommMonoid M] [Mul M]
    (D : DotDims (⟨2, ![n0, K]⟩ : Shape) (⟨2, ![K, n1]⟩ : Shape) (⟨2, ![n0, n1]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : (⟨2, ![n0, K]⟩ : Shape).Idx → M) (r : (⟨2, ![K, n1]⟩ : Shape).Idx → M) (j : (⟨2, ![n0, n1]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 k (j 1) := funext fun a => Fin.ext (by
    match a with
    | ⟨0, _⟩ => exact h2.trans hk
    | ⟨1, _⟩ => exact hr1 _ _)
  exact congrArg₂ (· * ·) (congrArg l el) (congrArg r er)

end Idealize.ShloMosaic.Contract2

end
-- ==== Proof.LibKeepdims.lean ====
/-
  A vector spread over a matrix, read at an entry.

  `broadcast_in_dim` places a vector along one axis of a matrix in two steps: first under a unit axis, then across
  that axis. A vector `v : [a]` sent to `[a, 1]` and then to `[a, b]` is constant along each row: entry `(i, j)` is
  `v i`. A vector `v : [b]` sent to `[1, b]` and then to `[a, b]` is constant along each column: entry `(i, j)` is
  `v j`. A scalar constant sent to any shape reads the constant everywhere.
-/
import Idealize.ShloMosaic.Lib.ValueIdx
import Idealize.ShloMosaic.Lib.Pipeline.Value

noncomputable section

namespace Idealize.ShloMosaic.Keepdims

open Idealize.ShloMosaic Idealize.ShloMosaic.ValueIdx

variable {α : Type}

/-- A vector of row values spread across the columns: entry `(i, j)` is the row's value. -/
theorem rows_apply {a b : Nat} (h1 : (⟨1, ![a]⟩ : Shape).BroadcastsInDim ⟨2, ![a, 1]⟩ ![0])
    (h2 : (⟨2, ![a, 1]⟩ : Shape).BroadcastsInDim ⟨2, ![a, b]⟩ ![0, 1]) (v : (⟨1, ![a]⟩ : Shape).Idx → α)
    (i : Fin a) (j : Fin b) :
    broadcastInDim (⟨2, ![a, b]⟩ : Shape) ![0, 1] h2 (broadcastInDim (⟨2, ![a, 1]⟩ : Shape) ![0] h1 v) (ix2 i j) = v (ix1 i) := by
  refine (broadcastInDim_apply _ h2 _ (ix2 i j) (ix2 i (0 : Fin 1)) (fun x => ?_)).trans
    (broadcastInDim_apply _ h1 v (ix2 i (0 : Fin 1)) (ix1 i) (fun x => ?_))
  · match x with
    | ⟨0, _⟩ =>
      show i.val = if a = 1 then 0 else i.val
      split_ifs with h
      · have := i.isLt; omega
      · rfl
    | ⟨1, _⟩ =>
      show 0 = if (1 : Nat) = 1 then 0 else j.val
      rw [if_pos rfl]
  · match x with
    | ⟨0, _⟩ =>
      show i.val = if a = 1 then 0 else i.val
      split_ifs with h
      · have := i.isLt; omega
      · rfl

/-- A vector of column values spread down the rows: entry `(i, j)` is the column's value. -/
theorem cols_apply {a b : Nat} (h1 : (⟨1, ![b]⟩ : Shape).BroadcastsInDim ⟨2, ![1, b]⟩ ![1])
    (h2 : (⟨2, ![1, b]⟩ : Shape).BroadcastsInDim ⟨2, ![a, b]⟩ ![0, 1]) (v : (⟨1, ![b]⟩ : Shape).Idx → α)
    (i : Fin a) (j : Fin b) :
    broadcastInDim (⟨2, ![a, b]⟩ : Shape) ![0, 1] h2 (broadcastInDim (⟨2, ![1, b]⟩ : Shape) ![1] h1 v) (ix2 i j) = v (ix1 j) := by
  refine (broadcastInDim_apply _ h2 _ (ix2 i j) (ix2 (0 : Fin 1) j) (fun x => ?_)).trans
    (broadcastInDim_apply _ h1 v (ix2 (0 : Fin 1) j) (ix1 j) (fun x => ?_))
  · match x with
    | ⟨0, _⟩ =>
      show 0 = if (1 : Nat) = 1 then 0 else i.val
      rw [if_pos rfl]
    | ⟨1, _⟩ =>
      show j.val = if b = 1 then 0 else j.val
      split_ifs with h
      · have := j.isLt; omega
      · rfl
  · match x with
    | ⟨0, _⟩ =>
      show j.val = if b = 1 then 0 else j.val
      split_ifs with h
      · have := j.isLt; omega
      · rfl

/-- A vector stood up as a one-column matrix: entry `(i, 0)` is the vector's entry `i`. -/
theorem column_apply {a : Nat} (h1 : (⟨1, ![a]⟩ : Shape).BroadcastsInDim ⟨2, ![a, 1]⟩ ![0])
    (v : (⟨1, ![a]⟩ : Shape).Idx → α) (i : Fin a) :
    broadcastInDim (⟨2, ![a, 1]⟩ : Shape) ![0] h1 v (ix2 i (0 : Fin 1)) = v (ix1 i) := by
  refine broadcastInDim_apply _ h1 v (ix2 i (0 : Fin 1)) (ix1 i) (fun x => ?_)
  match x with
  | ⟨0, _⟩ =>
    show i.val = if a = 1 then 0 else i.val
    split_ifs with h
    · have := i.isLt; omega
    · rfl

end Idealize.ShloMosaic.Keepdims

end
-- ==== Proof.LibDenseVec.lean ====
/-
  Matrix products and scalar splats read at an entry, on the extended reals.

  A vector program multiplies an [n, K] block by a [K, N] matrix into a zero accumulator; the host contracts the same
  axes with `dot_general`. Read at the entry (r, j) both are the textbook sum ∑ k < K, x (r, k) · w (k, j), for any
  extents and any dimension record that contracts the left operand's second axis with the right operand's first.
  The host lays a vector along every row of a matrix in two `broadcast_in_dim` steps (under a unit axis, then across
  it) and sends a scalar constant to every entry of an array by one; both idioms are named here, with what they read
  at an entry. The f32 word 0x3F800000 is the number one.
-/
import Idealize.ShloMosaic.Lib.ValueIdx
import Idealize.ShloMosaic.Lib.Pipeline.Value
import Idealize.ShloMosaic.PureOps.Ideal.Laws
import proofs.«101465_j28467043237896_1_alg».proof.Proof.LibContract
import proofs.«101465_j28467043237896_1_alg».proof.Proof.LibKeepdims

noncomputable section

open scoped BigOperators

namespace Idealize.ShloMosaic.DenseVec

open Idealize.ShloMosaic Idealize.ShloMosaic.ValueIdx

variable {n K N : ℕ}

/-- What a dimension record of an [n, K] · [K, N] product owes for its contraction to be the plain sum over the shared
    axis: one contracting axis of extent K, left axis 1 against right axis 0, and the free axes reading the result's
    coordinates. -/
structure Plain (D : DotDims (⟨2, ![n, K]⟩ : Shape) (⟨2, ![K, N]⟩ : Shape) (⟨2, ![n, N]⟩ : Shape)) : Prop where
  rank : D.contr.rank = 1
  size : ∀ h : 0 < D.contr.rank, D.contr.size ⟨0, h⟩ = K
  lhs : D.lhsContracting = [1]
  rhs : D.rhsContracting = [0]
  row : ∀ j q, (D.lhsIdx j q 0).val = (j 0).val
  col : ∀ j q, (D.rhsIdx j q 1).val = (j 1).val

/-- A vector program's product into the zero accumulator, at (r, j): ∑ k, x (r, k) · w (k, j). -/
theorem matmul_zero_ix2 {D : DotDims (⟨2, ![n, K]⟩ : Shape) (⟨2, ![K, N]⟩ : Shape) (⟨2, ![n, N]⟩ : Shape)} (hD : Plain D)
    {φ₁ φ₂ : FTy} (prec : Option ContractPrecision) (x : FVec Ideal (⟨2, ![n, K]⟩ : Shape) φ₁)
    (w : FVec Ideal (⟨2, ![K, N]⟩ : Shape) φ₂) (r : Fin n) (j : Fin N) :
    matmul D prec x w (constant (F := Ideal) (⟨2, ![n, N]⟩ : Shape) .f32 0x00000000#32) (ix2 r j)
      = ∑ k : Fin K, x (ix2 r k) * w (ix2 k j) :=
  (Ideal.matmul_constant_zero_apply D prec x w (ix2 r j)).trans
    (Contract2.sum_contr_eq_sum_fin (M := EReal) D hD.rank (hD.size _) hD.lhs hD.rhs hD.row hD.col x w (ix2 r j))

/-- The host's `dot_general` over the same axes, at (r, j): the same sum. -/
theorem dotGeneral_ix2 {D : DotDims (⟨2, ![n, K]⟩ : Shape) (⟨2, ![K, N]⟩ : Shape) (⟨2, ![n, N]⟩ : Shape)} (hD : Plain D)
    {φ₁ φ₂ : FTy} (prec : Option ContractPrecision) (x : FVec Ideal (⟨2, ![n, K]⟩ : Shape) φ₁)
    (w : FVec Ideal (⟨2, ![K, N]⟩ : Shape) φ₂) (r : Fin n) (j : Fin N) :
    Host.dotGeneral D prec x w (ix2 r j) = ∑ k : Fin K, x (ix2 r k) * w (ix2 k j) :=
  (Ideal.dotGeneral_apply D prec _ x w (ix2 r j)).trans
    (Contract2.sum_contr_eq_sum_fin (M := EReal) D hD.rank (hD.size _) hD.lhs hD.rhs hD.row hD.col x w (ix2 r j))

/-- A vector laid along every row of an [n, N] matrix in the host's spelling: sent under a unit axis, then across it. -/
def spreadCols {α : Type} (h1 : (⟨1, ![N]⟩ : Shape).BroadcastsInDim ⟨2, ![1, N]⟩ ![1])
    (h2 : (⟨2, ![1, N]⟩ : Shape).BroadcastsInDim ⟨2, ![n, N]⟩ ![0, 1]) (b : (⟨1, ![N]⟩ : Shape).Idx → α) :
    (⟨2, ![n, N]⟩ : Shape).Idx → α :=
  broadcastInDim (⟨2, ![n, N]⟩ : Shape) ![0, 1] h2 (broadcastInDim (⟨2, ![1, N]⟩ : Shape) ![1] h1 b)

/-- At (r, j) it reads the vector's entry j. -/
theorem spreadCols_apply {α : Type} (h1 : (⟨1, ![N]⟩ : Shape).BroadcastsInDim ⟨2, ![1, N]⟩ ![1])
    (h2 : (⟨2, ![1, N]⟩ : Shape).BroadcastsInDim ⟨2, ![n, N]⟩ ![0, 1]) (b : (⟨1, ![N]⟩ : Shape).Idx → α)
    (r : Fin n) (j : Fin N) : spreadCols h1 h2 b (ix2 r j) = b (ix1 j) :=
  Keepdims.cols_apply h1 h2 b r j

/-- A scalar constant sent to every entry of an array (a `broadcast_in_dim` along no axis). -/
def splat {F : FTy → Type} [FloatOps F] {s : Shape} {φ : FTy} (h : (⟨0, ![]⟩ : Shape).BroadcastsInDim s ![])
    (b : BitVec φ.bits) : FVec F s φ :=
  broadcastInDim s ![] h (constant (F := F) (⟨0, ![]⟩ : Shape) φ b)

/-- On the extended reals every entry reads the constant's value. -/
theorem splat_apply {s : Shape} {φ : FTy} (h : (⟨0, ![]⟩ : Shape).BroadcastsInDim s ![]) (b : BitVec φ.bits) (i : s.Idx) :
    splat (F := Ideal) h b i = Ideal.ofBits φ b := rfl

/-- The f32 word 0x3F800000 is the number one. -/
theorem ofBits_one_f32 : Ideal.ofBits .f32 0x3F800000#32 = 1 := by
  simp [Ideal.ofBits, Ideal.ieee, -EReal.coe_mul]; norm_num

end Idealize.ShloMosaic.DenseVec

end
-- ==== Proof.LibColumnForms.lean ====
/-
  A vector kept as a one-column matrix, read at an entry.

  A row-wise reduction that keeps its axis (a sum over the columns of an [a, n] block, kept as [a, 1]) is spelt by a
  vector program in two steps: the lane sum into a vector of length a, then a shape cast that stands the vector up
  as a column. The column is then spread across the b columns of an [a, b] block by a broadcast; its transpose, a
  [1, a] row, is spread down the rows. Here each step is read at an entry given by its coordinates:

    the column of a vector              [a]    → [a, 1]   entry (i, 0) is the vector's entry i;
    a column spread across the columns  [a, 1] → [a, b]   entry (i, j) is the column's entry (i, 0);
    a lane sum over the second axis     [a, n] → [a]      entry i is the sum over k < n of the block's entry (i, k),
                                                          on the extended reals, where the zero accumulator is the
                                                          sum's neutral element and leaves no trace.

  (The transpose of a column into a row and the spreading of a row down the rows are in the library's layout file.)
-/
import Idealize.ShloMosaic.Lib.ValueIdx
import Idealize.ShloMosaic.Lib.Pipeline.Value
import Idealize.ShloMosaic.PureOps.Ideal.Laws

noncomputable section

open scoped BigOperators

namespace Idealize.ShloMosaic.ColumnForms

open Idealize.ShloMosaic Idealize.ShloMosaic.ValueIdx

variable {α : Type}

/-- A vector stood up as a one-column matrix by a shape cast: entry (i, 0) is the vector's entry i (the two indices
    have the same row-major position, i · 1 + 0 = i). -/
theorem shapeCast_a_a1_apply {a : ℕ} (v : (⟨1, ![a]⟩ : Shape).Idx → α)
    (h : (⟨1, ![a]⟩ : Shape).ShapeCasts ⟨2, ![a, 1]⟩) (i : Fin a) :
    shapeCast ⟨2, ![a, 1]⟩ v h (ix2 i (0 : Fin 1)) = v (ix1 i) := by
  refine shapeCast_apply v h (ix2 i (0 : Fin 1)) (ix1 i) ?_
  rw [Shape.rowMajor_val_one, Shape.rowMajor_val_two]
  show i.val = i.val * 1 + 0
  omega

/-- A one-column matrix spread across b columns by a broadcast: entry (i, j) is the column's entry (i, 0). -/
theorem broadcastTo_a1_ab_apply {a b : ℕ} (w : (⟨2, ![a, 1]⟩ : Shape).Idx → α)
    (h : (⟨2, ![a, 1]⟩ : Shape).Broadcasts ⟨2, ![a, b]⟩) (i : Fin a) (j : Fin b) :
    broadcastTo ⟨2, ![a, b]⟩ w h (ix2 i j) = w (ix2 i (0 : Fin 1)) := by
  refine broadcastTo_apply w h (ix2 i j) (ix2 i (0 : Fin 1)) fun ax => ?_
  match ax with
  | ⟨0, _⟩ =>
    show i.val = if a = 1 then 0 else i.val
    split
    · have := i.isLt; omega
    · rfl
  | ⟨1, _⟩ => rfl

/-- A lane sum of an [a, n] block over its second axis, on the extended reals: entry i is the sum over the n columns of
    the block's row i. The accumulator word is the sum's neutral element, whatever proof of that the program carries. -/
theorem laneSum_apply {a n : ℕ} {φ : FTy} (x : FVec Ideal (⟨2, ![a, n]⟩ : Shape) φ) (acc : BitVec φ.bits)
    (h : (⟨2, ![a, n]⟩ : Shape).Reduces [1] ⟨1, ![a]⟩) (hφ : FKind.Formats φ) (hacc : acc = FKind.add.neutral φ hφ) (i : Fin a) :
    multiReduction .add [1] ⟨1, ![a]⟩ x acc h hφ hacc (ix1 i) = ∑ k : Fin n, x (ix2 i k) := by
  refine (Ideal.multiReduction_add_single x acc h hφ hacc (ix1 i)).trans ?_
  refine Finset.sum_congr rfl fun k _ => congrArg x (funext fun c => Fin.ext ?_)
  match c with
  | ⟨0, _⟩ => rfl
  | ⟨1, _⟩ => rfl

/-- The same lane sum as an f32 program prints it: the accumulator is the zero word, and the proof it carries that the
    word is the sum's neutral element is a proof that zero is zero. -/
theorem laneSum_zero_f32_apply {a n : ℕ} (x : FVec Ideal (⟨2, ![a, n]⟩ : Shape) .f32)
    (h : (⟨2, ![a, n]⟩ : Shape).Reduces [1] ⟨1, ![a]⟩) (hφ : FKind.Formats .f32)
    (hacc : (0x00000000#32 : BitVec 32) = 0x00000000#32) (i : Fin a) :
    multiReduction .add [1] ⟨1, ![a]⟩ x 0x00000000#32 h hφ hacc (ix1 i) = ∑ k : Fin n, x (ix2 i k) :=
  laneSum_apply x 0x00000000#32 h hφ hacc i

end Idealize.ShloMosaic.ColumnForms

end
-- ==== Proof.BlockEntry.lean ====
/-
  One block of the kernel's output, entry by entry.

  At a grid point the kernel body holds a block `x0` of 1024 rows of `a` and a block `x1` of 1024 rows of `b`. It
  takes the squared lengths of the rows of each by a lane sum and keeps them as columns; the column of `x0` is
  spread across the columns of the 1024 × 1024 output block, the column of `x1` is transposed into a row and spread
  down the rows; the matrix unit multiplies `x0` by the transpose of `x1` into a zero accumulator; the conformal
  factors 1 − |·|² are formed on the columns and spread in the same two ways. So at entry (p, q) the five arrays the
  arcosh form is applied to read |x0ₚ|², |x1_q|², ⟨x0ₚ, x1_q⟩, 1 − |x0ₚ|² and 1 − |x1_q|², and the stored value is
  the distance of row p of the first block from row q of the second.
-/
import proofs.«101465_j28467043237896_1_alg».proof.Proof.Gen.KernelIdeal.Skeleton
import proofs.«101465_j28467043237896_1_alg».proof.Proof.BallDistance
import proofs.«101465_j28467043237896_1_alg».proof.Proof.LibDenseVec
import proofs.«101465_j28467043237896_1_alg».proof.Proof.LibColumnForms
import Idealize.ShloMosaic.Lib.ValueLayout

noncomputable section

open scoped BigOperators

namespace Cert.KernelIdeal.BlockEntry

open Cert.KernelIdeal Cert.KernelIdeal.Gen Cert.BallDistance
open Idealize.ShloMosaic Idealize.ShloMosaic.ValueIdx

/-- The matrix unit's dimension record contracts the second axis of the [1024, 64] block with the first axis of the
    [64, 1024] transposed block, and its free axes read the result's row and column: its contraction is the plain sum
    over the 64 shared coordinates. -/
theorem plain : DenseVec.Plain (n := 1024) (K := 64) (N := 1024) dot_S1024x64_S64x1024_S1024x1024_1_0_0_1_n_n where
  rank := rfl
  size := fun _ => rfl
  lhs := rfl
  rhs := rfl
  row := fun j q => by
    unfold DotDims.lhsIdx
    rw [dif_neg (show ¬(0 : Fin S1024x64.rank) ∈ dot_S1024x64_S64x1024_S1024x1024_1_0_0_1_n_n.lhsBatch by decide),
      dif_pos (show (0 : Fin S1024x64.rank) ∈ dot_S1024x64_S64x1024_S1024x1024_1_0_0_1_n_n.lhsNonContracting by decide)]
    rfl
  col := fun j q => by
    unfold DotDims.rhsIdx
    rw [dif_neg (show ¬(1 : Fin S64x1024.rank) ∈ dot_S1024x64_S64x1024_S1024x1024_1_0_0_1_n_n.rhsBatch by decide),
      dif_pos (show (1 : Fin S64x1024.rank) ∈ dot_S1024x64_S64x1024_S1024x1024_1_0_0_1_n_n.rhsNonContracting by decide)]
    rfl

/-- The matrix unit's product of the first block with the transpose of the second, into a zero accumulator, at (p, q):
    the inner product of row p of the first with row q of the second. -/
theorem dot_entry (x0 x1 : FVec Ideal S1024x64 .f32) (h : S1024x64.Transposes [1, 0] S64x1024) (p q : Fin 1024) :
    matmul dot_S1024x64_S64x1024_S1024x1024_1_0_0_1_n_n none x0 (transpose S64x1024 [1, 0] x1 h)
      (constant (F := Ideal) S1024x1024 .f32 0x00000000#32) (ix2 p q) = rowDot x0 x1 p q :=
  (DenseVec.matmul_zero_ix2 plain none x0 (transpose S64x1024 [1, 0] x1 h) p q).trans
    (Finset.sum_congr rfl fun k _ => congrArg (x0 (ix2 p k) * ·) (transpose_ix2_apply x1 h k q))

/-- THE STORED VALUE AT (p, q): the distance of row p of the first block from row q of the second. -/
theorem pay_entry (x0 x1 : Vec Ideal S1024x64 .f32) (p q : Fin 1024) :
    k0_pay1 (F := Ideal) x0 x1 (ix2 p q) = ofNorms (rowSq x0 p) (rowSq x1 q) (rowDot x0 x1 p q) := by
  unfold k0_pay1
  -- the pointwise operations entry by entry; a column spread across the columns reads its row's entry, a row spread
  -- down the rows its column's entry, and the column of a vector its entry
  simp only [log, sqrt, addf, subf, mulf, divf, maximumf, broadcast,
    ColumnForms.broadcastTo_a1_ab_apply, broadcastTo_1b_ab_apply, ColumnForms.shapeCast_a_a1_apply]
  -- the contraction; then the two rows that were columns before their transpose
  rw [dot_entry, transpose_ix2_apply, transpose_ix2_apply]
  simp only [subf, broadcast, ColumnForms.shapeCast_a_a1_apply]
  -- the two lane sums
  rw [ColumnForms.laneSum_zero_f32_apply, ColumnForms.laneSum_zero_f32_apply]
  rfl

end Cert.KernelIdeal.BlockEntry

end
-- ==== Proof.KernelTable.lean ====
/-
  From the kernel's 64 blocks to the whole table.

  The grid is 8 × 8. At the point with block coordinates (I, J) the body is given rows 1024·I … 1024·I + 1023 of `a`
  and rows 1024·J … 1024·J + 1023 of `b` (both 64 columns wide, so at column-block 0), and writes back the block
  (I, J) of the output. Entry (p, q) of what it writes is the distance of row p of the first block from row q of the
  second (`BlockEntry.pay_entry`), that is, of row 1024·I + p of `a` from row 1024·J + q of `b`: the table's entry
  at the place of the output array where (p, q) of block (I, J) lies. The 64 blocks tile the 8192 × 8192 array — the
  entry (i, j) lies in block (i / 1024, j / 1024) — so after the run the output array is the table.
-/
import proofs.«101465_j28467043237896_1_alg».proof.Proof.Gen.KernelIdeal.Value
import proofs.«101465_j28467043237896_1_alg».proof.Proof.BlockEntry

noncomputable section

namespace Cert.KernelIdeal.Table

open Cert.KernelIdeal Cert.KernelIdeal.Gen Cert.KernelIdeal.Value Cert.BallDistance
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The body's loads and its store start at the origin of their buffers. -/
theorem origin : (![0, 0] : Fin 2 → Nat) = fun _ => 0 := funext fun a => by fin_cases a <;> rfl

/-- The index maps, decided over the 64 grid points: the block of `a` has the output block's row index, the block of
    `b` has the output block's column index, both at column-block 0, and the output's block indices are at most 7. -/
theorem block_indices : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 7 ∧ win0_2.index t (1 : Fin 2) ≤ 7 :=
  (by decide +kernel : ∀ t : Fin grid0.N, _)

/-- Every pair of block indices below 8 is some grid point's. -/
theorem block_onto : ∀ (q0 q1 : Fin 8), ∃ t : Fin cfg0.N, win0_2.index t = ![q0.val, q1.val] :=
  (by decide +kernel : ∀ (q0 q1 : Fin 8), ∃ t : Fin grid0.N, win0_2.index t = ![q0.val, q1.val])

/-- WHAT POINT `t` WRITES BACK is block `t` of the table of the argument arrays. -/
theorem flushed_eq_table (c : Dev nD) (t : Fin cfg0.N) :
    (dats m 0 c).flushed 2 t
      = ((cfg0.win 2).blk t).view.read (Elt Ideal) (table (V m c main_arg0) (V m c main_arg1)) := by
  rw [flushed2]
  unfold out0_2
  rw [View.canon_unit_zero origin]
  simp only [View.ld_unit_zero (S := S1024x64) origin]
  obtain ⟨e0, e1, e2, e3, -, -⟩ := block_indices t
  funext j
  obtain ⟨p, q, rfl⟩ : ∃ (p q : Fin 1024), j = ix2 p q := ⟨j 0, j 1, eq_ix2 j⟩
  show k0_pay1 (F := Ideal) (iblk m c 0 t) (iblk m c 1 t) (ix2 p q)
    = table (V m c main_arg0) (V m c main_arg1) (((cfg0.win 2).blk t).view.emb (ix2 p q))
  refine (BlockEntry.pay_entry (iblk m c 0 t) (iblk m c 1 t) p q).trans ?_
  refine ofNorms_rows (V m c main_arg0) (V m c main_arg1) (iblk m c 0 t) (iblk m c 1 t) p q
    (((cfg0.win 2).blk t).view.emb (ix2 p q)) (fun k => ?_) (fun k => ?_)
  · -- row p of the block of `a` is the row of `a` where the output's entry lies
    show V m c main_arg0 (((cfg0.win 0).blk t).view.emb (ix2 p k))
      = V m c main_arg0 (ix2 ((((cfg0.win 2).blk t).view.emb (ix2 p q)) 0) k)
    refine congrArg (V m c main_arg0) (funext fun a => Fin.ext ?_)
    match a with
    | ⟨0, _⟩ =>
      show win0_0.index t (0 : Fin 2) * 1024 + 1 * p.val = win0_2.index t (0 : Fin 2) * 1024 + 1 * p.val
      omega
    | ⟨1, _⟩ =>
      show win0_0.index t (1 : Fin 2) * 64 + 1 * k.val = k.val
      omega
  · -- row q of the block of `b` is the row of `b` named by the output entry's column
    show V m c main_arg1 (((cfg0.win 1).blk t).view.emb (ix2 q k))
      = V m c main_arg1 (ix2 ((((cfg0.win 2).blk t).view.emb (ix2 p q)) 1) k)
    refine congrArg (V m c main_arg1) (funext fun a => Fin.ext ?_)
    match a with
    | ⟨0, _⟩ =>
      show win0_1.index t (0 : Fin 2) * 1024 + 1 * q.val = win0_2.index t (1 : Fin 2) * 1024 + 1 * q.val
      omega
    | ⟨1, _⟩ =>
      show win0_1.index t (1 : Fin 2) * 64 + 1 * k.val = k.val
      omega

/-- An entry of the output array is in point `t`'s block iff each coordinate is in the block's range on its axis. -/
theorem mem_block (t : Fin cfg0.N) (i : S8192x8192.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v0).slice (win0_2.rect t)).set ↔ _
  rw [View.set_slice_whole, Rect.mem_set_unit]
  exact Iff.rfl

/-- THE BLOCKS TILE THE ARRAY: entry (i, j) lies in the block of the point with block indices (i / 1024, j / 1024). -/
theorem covered (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := block_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_block]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 1024 ≤ (i 1).val ∧ (i 1).val < win0_2.index t (1 : Fin 2) * 1024 + 1024
    omega

/-- THE OUTPUT ARRAY after the run is the table of the argument arrays. -/
theorem final_table (c : Dev nD) :
    (dats m 0 c).arrAt 2 cfg0.N
      = table (m ((c : Thread nD τ).loc main_arg0)) (m ((c : Thread nD τ).loc main_arg1)) :=
  (dats m 0 c).arrAt_eq_of_cover 2 (table (V m c main_arg0) (V m c main_arg1))
    (fun t _ => flushed_eq_table m c t) covered

/-- THE KERNEL'S RUN: every weakly fair execution terminates with the result array at the table of the argument
    arrays and the arguments unchanged. -/
theorem run : θ_run defs (onTc (τ := τ) (main (F := Ideal))) ⟨m, fun _ => 0, ρ⟩ fun r => ∀ c : Dev nD,
      r.2.mem ((c : Thread nD τ).loc main_v0)
        = table (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_table m c), (h c).2⟩) (run_blocks m ρ)

end Cert.KernelIdeal.Table

end
-- ==== Proof.ReferenceTable.lean ====
/-
  The reference's result is the distance table.

  The reference takes the squared lengths of the rows of `a` and of `b` by whole-array reductions (from the initial
  value zero), stands the first up as a column and lays the second out as a row and spreads both over the 8192 × 8192
  table, contracts `a` with the transpose of `b`, and then applies the arcosh form entry by entry. Read at the entry
  (r, s), its five intermediate arrays are |aᵣ|², |bₛ|², ⟨aᵣ, bₛ⟩, 1 − |aᵣ|² and 1 − |bₛ|², and what it applies to them
  is, operation for operation, `BallDistance.arcoshForm`.
-/
import proofs.«101465_j28467043237896_1_alg».proof.Proof.Gen.ReferenceIdeal.Read
import proofs.«101465_j28467043237896_1_alg».proof.Proof.BallDistance
import proofs.«101465_j28467043237896_1_alg».proof.Proof.LibKeepdims
import Idealize.ShloMosaic.PureOps.Ideal.Laws

noncomputable section

open scoped BigOperators

namespace Cert.ReferenceIdeal.Table

open Cert.ReferenceIdeal Cert.ReferenceIdeal.Read Cert.BallDistance
open Idealize.ShloMosaic Idealize.ShloMosaic.ValueIdx

/-- The reduction of the squares of `a` along its rows, from the initial value zero, is the rows' squared lengths. -/
theorem sq_a (a : (⟨S8192x64, .f32⟩ : BufTy).Contents (Elt Ideal)) (r : Fin 8192) :
    val_main_v1 (F := Ideal) a (ix1 r) = rowSq a r := by
  rw [val_main_v1_apply]
  show Ideal.ofBits .f32 0x00000000#32 + ∑ k : Fin 64, a (idx_main_v1 (ix1 r) k) * a (idx_main_v1 (ix1 r) k)
    = ∑ k : Fin 64, a (ix2 r k) * a (ix2 r k)
  rw [Ideal.ofBits_zero_f32, zero_add]
  refine Finset.sum_congr rfl fun k _ => ?_
  have e : idx_main_v1 (ix1 r) k = ix2 r k :=
    funext fun c => Fin.ext (by match c with | ⟨0, _⟩ => rfl | ⟨1, _⟩ => rfl)
  rw [e]

/-- The same reduction of the squares of `b`. -/
theorem sq_b (b : (⟨S8192x64, .f32⟩ : BufTy).Contents (Elt Ideal)) (s : Fin 8192) :
    val_main_v3 (F := Ideal) b (ix1 s) = rowSq b s := by
  rw [val_main_v3_apply]
  show Ideal.ofBits .f32 0x00000000#32 + ∑ k : Fin 64, b (idx_main_v3 (ix1 s) k) * b (idx_main_v3 (ix1 s) k)
    = ∑ k : Fin 64, b (ix2 s k) * b (ix2 s k)
  rw [Ideal.ofBits_zero_f32, zero_add]
  refine Finset.sum_congr rfl fun k _ => ?_
  have e : idx_main_v3 (ix1 s) k = ix2 s k :=
    funext fun c => Fin.ext (by match c with | ⟨0, _⟩ => rfl | ⟨1, _⟩ => rfl)
  rw [e]

/-- The contraction of `a` with the transpose of `b`, at (r, s), is the inner product of row r of `a` with row s of `b`. -/
theorem dot_ab (a b : (⟨S8192x64, .f32⟩ : BufTy).Contents (Elt Ideal)) (r s : Fin 8192) :
    val_main_v10 (F := Ideal) a b (ix2 r s) = rowDot a b r s := by
  rw [val_main_v10_apply]
  refine Finset.sum_congr rfl fun k _ => ?_
  rw [val_main_v9_apply]
  have el : lidx_main_v10 (ix2 r s) k = ix2 r k :=
    funext fun c => Fin.ext (by match c with | ⟨0, _⟩ => rfl | ⟨1, _⟩ => rfl)
  have er : idx_main_v9 (ridx_main_v10 (ix2 r s) k) = ix2 s k :=
    funext fun c => Fin.ext (by match c with | ⟨0, _⟩ => rfl | ⟨1, _⟩ => rfl)
  rw [el, er]

/-- THE REFERENCE'S RESULT, as a function of its two arguments, is the distance table. -/
theorem result_eq_table (a b : (⟨S8192x64, .f32⟩ : BufTy).Contents (Elt Ideal)) :
    val_main_v36 (F := Ideal) a b = table a b := by
  funext i
  obtain ⟨r, s, rfl⟩ : ∃ (r s : Fin 8192), i = ix2 r s := ⟨i 0, i 1, eq_ix2 i⟩
  -- the five reads: a column spread across the columns, a row spread down the rows, the contraction
  have h6 : val_main_v6 (F := Ideal) a (ix2 r s) = rowSq a r :=
    (Keepdims.rows_apply _ _ (val_main_v1 (F := Ideal) a) r s).trans (sq_a a r)
  have h7 : val_main_v7 (F := Ideal) b (ix2 r s) = rowSq b s :=
    (Keepdims.cols_apply _ _ (val_main_v3 (F := Ideal) b) r s).trans (sq_b b s)
  have h23 : val_main_v23 (F := Ideal) a (ix2 r s) = Ideal.ofBits .f32 0x3F800000#32 - rowSq a r :=
    (Keepdims.rows_apply _ _ (val_main_v18 (F := Ideal) a) r s).trans
      (congrArg (Ideal.ofBits .f32 0x3F800000#32 - ·) (sq_a a r))
  have h24 : val_main_v24 (F := Ideal) b (ix2 r s) = Ideal.ofBits .f32 0x3F800000#32 - rowSq b s :=
    (Keepdims.cols_apply _ _ (val_main_v21 (F := Ideal) b) r s).trans
      (congrArg (Ideal.ofBits .f32 0x3F800000#32 - ·) (sq_b b s))
  have h10 := dot_ab a b r s
  -- entry by entry the rest is the arcosh form of those five reads
  show arcoshForm (val_main_v6 (F := Ideal) a (ix2 r s)) (val_main_v7 (F := Ideal) b (ix2 r s))
      (val_main_v10 (F := Ideal) a b (ix2 r s)) (val_main_v23 (F := Ideal) a (ix2 r s)) (val_main_v24 (F := Ideal) b (ix2 r s))
    = ofNorms (rowSq a r) (rowSq b s) (rowDot a b r s)
  rw [h6, h7, h10, h23, h24]
  rfl

end Cert.ReferenceIdeal.Table

end
-- ==== Proof.lean ====
/-
  The kernel and the reference compute one and the same table of distances.

  The arguments are two arrays `a`, `b` of 8192 points of ℝ⁶⁴ each, one point per row. Entry (i, j) of the result is

      log (y + √(y² − 1)),   y = 1 + 2 · √(max (|aᵢ|² + |bⱼ|² − 2⟨aᵢ, bⱼ⟩) 0) / ((1 − |aᵢ|²)(1 − |bⱼ|²)),

  the arcosh of y written out (`BallDistance.table`). The reference forms the squared lengths by two whole-array
  reductions, the inner products by one contraction of `a` with the transpose of `b`, and applies the expression
  entry by entry (`ReferenceTable.result_eq_table`). The kernel works on an 8 × 8 grid of 1024 × 1024 output blocks:
  at a grid point it holds 1024 rows of `a` and 1024 rows of `b`, takes their squared lengths by lane sums and their
  inner products on the matrix unit, and applies the same expression, operation for operation and with the same
  three constant words (`BlockEntry.pay_entry`); the 64 blocks tile the output (`KernelTable.final_table`). On the
  extended reals a finite sum is the same however it is taken, and every operation of the expression is total and
  read alike on both sides, so the two results are equal entry by entry, whatever the inputs: the inputs'
  finiteness is not used.

  The frames of the two kernel programs are the generated frame runs; the reference's frame is its generated run
  with the result forgotten. The idealization rewrote nothing, so what it preserves is trivially preserved.
-/
import proofs.«101465_j28467043237896_1_alg».proof.Defs
import proofs.«101465_j28467043237896_1_alg».proof.Proof.Gen.Kernel
import proofs.«101465_j28467043237896_1_alg».proof.Proof.Gen.Kernel.Skeleton
import proofs.«101465_j28467043237896_1_alg».proof.Proof.Gen.Kernel.Launch
import proofs.«101465_j28467043237896_1_alg».proof.Proof.Gen.Kernel.Points
import proofs.«101465_j28467043237896_1_alg».proof.Proof.Gen.Kernel.Frame
import proofs.«101465_j28467043237896_1_alg».proof.Proof.Gen.KernelIdeal
import proofs.«101465_j28467043237896_1_alg».proof.Proof.Gen.KernelIdeal.Skeleton
import proofs.«101465_j28467043237896_1_alg».proof.Proof.Gen.KernelIdeal.Launch
import proofs.«101465_j28467043237896_1_alg».proof.Proof.Gen.KernelIdeal.Points
import proofs.«101465_j28467043237896_1_alg».proof.Proof.Gen.KernelIdeal.Frame
import proofs.«101465_j28467043237896_1_alg».proof.Proof.Gen.ReferenceIdeal
import proofs.«101465_j28467043237896_1_alg».proof.Proof.Gen.Pre_finite_inputs
import proofs.«101465_j28467043237896_1_alg».proof.Proof.Gen.KernelIdeal.Value
import proofs.«101465_j28467043237896_1_alg».proof.Proof.Gen.ReferenceIdeal.Run
import proofs.«101465_j28467043237896_1_alg».proof.Proof.Gen.ReferenceIdeal.Read
import proofs.«101465_j28467043237896_1_alg».proof.Proof.KernelTable
import proofs.«101465_j28467043237896_1_alg».proof.Proof.ReferenceTable
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on `a` and `b`, the kernel's result array and the reference's both end at the distance
    table of `a` and `b`. -/
theorem algebraic : Cert.algebraic_KernelIdeal_ReferenceIdeal := by
  intro m ρ m' ρ' _ hagree
  refine ⟨fun c => Cert.BallDistance.table
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Table.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, Cert.ReferenceIdeal.Table.result_eq_table, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
